-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x3 : Shape := ⟨2, ![128, 3]⟩
abbrev S3 : Shape := ⟨1, ![3]⟩
abbrev S3x4 : Shape := ⟨2, ![3, 4]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S3x4 : S_.BroadcastsInDim S3x4 (![] : Fin 0 → Fin S3x4.rank)
  reducesTo_S3x4_S_d0_1 : S3x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v13 : IVec S_ 1) (main_v16 : IVec S3x4 1) : IVec S_ 1 :=
  let main_c_5 : IVec S_ 1 := constantI S_ 1 1#1
  let main_v17 : IVec S_ 1 := (fun x v => Host.reduce IntOp.andi x v reducesTo_S3x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x3 .f32) (main_arg3 : FVec F S3 .f32) (main_arg4 : FVec F S3x4 .f32) (main_arg5 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x3 .f32 := Host.absf main_arg2
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x4 .f32 := Host.absf main_arg4
  let main_cst_4 : FVec F S_ .f32 := constant S_ .f32 0x7F800000#32
  let main_v15 : FVec F S3x4 .f32 := broadcastInDim S3x4 ![] bcast_S_S3x4 main_cst_4
  let main_v16 : IVec S3x4 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x3 : Shape := ⟨2, ![128, 3]⟩
abbrev S3 : Shape := ⟨1, ![3]⟩
abbrev S3x4 : Shape := ⟨2, ![3, 4]⟩
abbrev S4 : Shape := ⟨1, ![4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x3 : Shape := ⟨2, ![100000, 3]⟩
abbrev S5000x128 : Shape := ⟨2, ![5000, 128]⟩
abbrev S5000x3 : Shape := ⟨2, ![5000, 3]⟩
abbrev S_ : Shape := ⟨0, ![]⟩
abbrev S3300000x1 : Shape := ⟨2, ![3300000, 1]⟩
abbrev S3300000x3 : Shape := ⟨2, ![3300000, 3]⟩
abbrev S1x3 : Shape := ⟨2, ![1, 3]⟩
abbrev S1x4 : Shape := ⟨2, ![1, 4]⟩
abbrev S100000x4 : Shape := ⟨2, ![100000, 4]⟩
abbrev S5000x4 : Shape := ⟨2, ![5000, 4]⟩

abbrev nBuf : Space → Nat
  | .hbm => 67
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x3, .f32⟩
  | .hbm, ⟨3, _⟩ => ⟨S3, .f32⟩
  | .hbm, ⟨4, _⟩ => ⟨S3x4, .f32⟩
  | .hbm, ⟨5, _⟩ => ⟨S4, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x3, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x3, .f32⟩
  | .hbm, ⟨56, _⟩ => ⟨S3300000x1, .f32⟩
  | .hbm, ⟨57, _⟩ => ⟨S3300000x3, .f32⟩
  | .hbm, ⟨58, _⟩ => ⟨S3300000x3, .f32⟩
  | .hbm, ⟨59, _⟩ => ⟨S_, .f32⟩
  | .hbm, ⟨60, _⟩ => ⟨S100000x3, .f32⟩
  | .hbm, ⟨61, _⟩ => ⟨S3300000x1, .i32⟩
  | .hbm, ⟨62, _⟩ => ⟨S100000x3, .f32⟩
  | .hbm, ⟨63, _⟩ => ⟨S1x3, .f32⟩
  | .hbm, ⟨64, _⟩ => ⟨S1x4, .f32⟩
  | .hbm, ⟨65, _⟩ => ⟨S100000x3, .f32⟩
  | .hbm, ⟨66, _⟩ => ⟨S100000x4, .f32⟩
  | .local _ .vmem, ⟨0, _⟩ => ⟨S5000x128, .f32⟩
  | .local _ .vmem, ⟨1, _⟩ => ⟨S5000x128, .f32⟩
  | .local _ .vmem, ⟨2, _⟩ => ⟨S128x3, .f32⟩
  | .local _ .vmem, ⟨3, _⟩ => ⟨S5000x3, .f32⟩
  | .local _ .vmem, ⟨4, _⟩ => ⟨S5000x3, .f32⟩
  | .local _ .vmem, ⟨5, _⟩ => ⟨S5000x3, .f32⟩
  | .local _ .vmem, ⟨6, _⟩ => ⟨S5000x3, .f32⟩
  | .local _ .vmem, ⟨7, _⟩ => ⟨S1x3, .f32⟩
  | .local _ .vmem, ⟨8, _⟩ => ⟨S3x4, .f32⟩
  | .local _ .vmem, ⟨9, _⟩ => ⟨S1x4, .f32⟩
  | .local _ .vmem, ⟨10, _⟩ => ⟨S5000x3, .f32⟩
  | .local _ .vmem, ⟨11, _⟩ => ⟨S5000x3, .f32⟩
  | .local _ .vmem, ⟨12, _⟩ => ⟨S5000x4, .f32⟩
  | .local _ .vmem, ⟨13, _⟩ => ⟨S5000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46_0 : Ref sig .tc := ⟨.hbm, 65, rfl⟩
abbrev main_v46_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x3_S128x3_0_0 : ∀ a, (![0, 0] : Fin 2 → Nat) a + S128x3.size a ≤ S128x3.size a
  h_S128x3 : 0 < S128x3.numel
  inb_S5000x3_S5000x3_0_0 : ∀ a, (![0, 0] : Fin 2 → Nat) a + S5000x3.size a ≤ S5000x3.size a
  h_S5000x3 : 0 < S5000x3.numel
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  shapeCasts_S3_S1x3 : S3.ShapeCasts S1x3
  shapeCasts_S4_S1x4 : S4.ShapeCasts S1x4
  shapeCasts_S5000x3_S5000x3 : S5000x3.ShapeCasts S5000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S3x4_S3x4_0_0 : ∀ a, (![0, 0] : Fin 2 → Nat) a + S3x4.size a ≤ S3x4.size a
  h_S3x4 : 0 < S3x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  dot_S5000x128_S128x3_S5000x3_1_0_0_1_n_n_wf : DotDims.WF S5000x128 S128x3 S5000x3 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  dot_S5000x3_S3x4_S5000x4_1_0_0_1_n_n_wf : DotDims.WF S5000x3 S3x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .f32 = 32 ∨ (Rect.block (s := S128x3) S128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x3.size a ≤ S100000x3.size a
  hwx0_2 : ∀ i : grid0.Coords, EltTy.bits .f32 = 32 ∨ (Rect.block (s := S100000x3) S5000x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S100000x3.size a
  hwx1_0 : ∀ i : grid1.Coords, EltTy.bits .f32 = 32 ∨ (Rect.block (s := S100000x3) S5000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x3.size a ≤ S1x3.size a
  hwx1_1 : ∀ i : grid1.Coords, EltTy.bits .f32 = 32 ∨ (Rect.block (s := S1x3) S1x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x4.size a ≤ S3x4.size a
  hwx1_2 : ∀ i : grid1.Coords, EltTy.bits .f32 = 32 ∨ (Rect.block (s := S3x4) S3x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .f32 = 32 ∨ (Rect.block (s := S1x4) S1x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x3.size a ≤ S100000x3.size a
  hwx1_4 : ∀ i : grid1.Coords, EltTy.bits .f32 = 32 ∨ (Rect.block (s := S100000x3) S5000x3.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x4.size a ≤ S100000x4.size a
  hwx1_5 : ∀ i : grid1.Coords, EltTy.bits .f32 = 32 ∨ (Rect.block (s := S100000x4) S5000x4.size (cc1_transform_5 i) (hinb1_5 i)).WholeWords (EltTy.packing .f32)

variable [Facts₀]

def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf
def dot_S5000x3_S3x4_S5000x4_1_0_0_1_n_n : DotDims S5000x3 S3x4 S5000x4 where
  lhsContracting := [1]
  rhsContracting := [0]
  lhsNonContracting := [0]
  rhsNonContracting := [1]
  lhsBatch := []
  rhsBatch := []
  wf := dot_S5000x3_S3x4_S5000x4_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S3x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_0) S5000x3.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46_1) S5000x4.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x3 : Shape := ⟨2, ![128, 3]⟩
abbrev S3 : Shape := ⟨1, ![3]⟩
abbrev S3x4 : Shape := ⟨2, ![3, 4]⟩
abbrev S4 : Shape := ⟨1, ![4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x3 : Shape := ⟨2, ![100000, 3]⟩
abbrev S_ : Shape := ⟨0, ![]⟩
abbrev S3300000x1 : Shape := ⟨2, ![3300000, 1]⟩
abbrev S3300000x3 : Shape := ⟨2, ![3300000, 3]⟩
abbrev S1x3 : Shape := ⟨2, ![1, 3]⟩
abbrev S100000x4 : Shape := ⟨2, ![100000, 4]⟩
abbrev S1x4 : Shape := ⟨2, ![1, 4]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x3, .f32⟩
  | .hbm, ⟨3, _⟩ => ⟨S3, .f32⟩
  | .hbm, ⟨4, _⟩ => ⟨S3x4, .f32⟩
  | .hbm, ⟨5, _⟩ => ⟨S4, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x3, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x3, .f32⟩
  | .hbm, ⟨56, _⟩ => ⟨S3300000x1, .f32⟩
  | .hbm, ⟨57, _⟩ => ⟨S3300000x3, .f32⟩
  | .hbm, ⟨58, _⟩ => ⟨S3300000x3, .f32⟩
  | .hbm, ⟨59, _⟩ => ⟨S_, .f32⟩
  | .hbm, ⟨60, _⟩ => ⟨S100000x3, .f32⟩
  | .hbm, ⟨61, _⟩ => ⟨S3300000x1, .i32⟩
  | .hbm, ⟨62, _⟩ => ⟨S100000x3, .f32⟩
  | .hbm, ⟨63, _⟩ => ⟨S1x3, .f32⟩
  | .hbm, ⟨64, _⟩ => ⟨S100000x3, .f32⟩
  | .hbm, ⟨65, _⟩ => ⟨S100000x3, .f32⟩
  | .hbm, ⟨66, _⟩ => ⟨S_, .f32⟩
  | .hbm, ⟨67, _⟩ => ⟨S100000x3, .f32⟩
  | .hbm, ⟨68, _⟩ => ⟨S100000x3, .f32⟩
  | .hbm, ⟨69, _⟩ => ⟨S100000x4, .f32⟩
  | .hbm, ⟨70, _⟩ => ⟨S1x4, .f32⟩
  | .hbm, ⟨71, _⟩ => ⟨S100000x4, .f32⟩
  | .hbm, ⟨72, _⟩ => ⟨S100000x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  dot_S100000x128_S128x3_S100000x3_1_0_0_1_n_n_wf : DotDims.WF S100000x128 S128x3 S100000x3 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  dot_S100000x3_S3x4_S100000x4_1_0_0_1_n_n_wf : DotDims.WF S100000x3 S3x4 S100000x4 [1] [0] [0] [1] [] []

variable [Facts₀]

def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf
def dot_S100000x3_S3x4_S100000x4_1_0_0_1_n_n : DotDims S100000x3 S3x4 S100000x4 where
  lhsContracting := [1]
  rhsContracting := [0]
  lhsNonContracting := [0]
  rhsNonContracting := [1]
  lhsBatch := []
  rhsBatch := []
  wf := dot_S100000x3_S3x4_S100000x4_1_0_0_1_n_n_wf

class Facts : Prop extends Facts₀ where

variable [Facts]
-- ==== Proof.KernelRun.lean ====
/-
  The idealized kernel's run, with what it leaves in memory.

  The program is six segments in a row: a stretch of host operations (the edge list split into source and destination
  rows, each extended by the self loops), the projection kernel over twenty row blocks, three stretches of host
  operations (the degree normalisation and the gather / scatter aggregation), and the output kernel over twenty row
  blocks. The contents of a core's buffers at each boundary are a fold through the segments: a host stretch applies
  its operations, a kernel region replaces the arrays of its windows by what its write-backs leave. Every weakly fair
  execution terminates without a fault, and it ends with EVERY buffer of the core that outlives the kernels at the
  last value of that fold. The two results and the six arguments are such buffers; the arguments' last values are
  their launch contents.
-/
import proofs.«156523_j68951404970424_1_alg».proof.Proof.Gen.KernelIdeal.Frame

set_option maxRecDepth 16384

noncomputable section

namespace Cert.KernelIdeal.RunOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each buffer of a
    core that no kernel region scopes holds the last value of the fold through the segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with its two results named: the hidden-layer array is window 4's array of the output kernel and the output
    array window 5's, each at what that kernel's write-backs leave; the arguments end as launched. -/
theorem run_results : θ_run defs (onTc (τ := τ) (main (F := F))) ⟨m, fun _ => 0, ρ⟩ (fun r => ∀ c : Dev nD,
      r.2.mem ((c.tc : Thread nD τ).loc main_v46_0) = (dat1 (V5 m ρ) c).arrAt 4 cfg1.N
      ∧ r.2.mem ((c.tc : Thread nD τ).loc main_v46_1) = (dat1 (V5 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v46_0 (by decide))).trans (W6_arr m ρ c 4),
       (h c _ (mem_uc main_v46_1 (by decide))).trans (W6_arr m ρ c 5),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)
    (run_all m ρ)

end Cert.KernelIdeal.RunOut

end
-- ==== Proof.Aggregation.lean ====
/-
  The sparse middle of the network: symmetric degree normalisation and the gather / scatter aggregation.

  From the edge list `e` (two rows of 3200000 node numbers: sources and destinations) the program forms the source row
  and the destination row, each extended by the 100000 self loops `0, 1, …, 99999`. Then, with `xw` the projected
  features (one row of three per node):
    * the degree of a node is the number of edges (self loop included) that end in it — a scatter-add of ones at the
      destinations;
    * its normalising factor is `1 / sqrt (degree)` where the degree is positive and `0` elsewhere;
    * an edge's weight is the product of the factors of its two ends (a negative node number is read from the end of
      the array, as jnp indexing does);
    * the message of an edge is its source's row of `xw` times the edge's weight, and a node aggregates the messages of
      the edges that end in it — a scatter-add at the destinations.
  Both programs compute this middle with the same host operations on the same operands; it is stated here once, as one
  function of the source row, the destination row and the projected features, and it is never opened: all that is used
  of it is that equal arguments give equal results.
-/
import proofs.«156523_j68951404970424_1_alg».proof.Proof.Gen.ReferenceIdeal

noncomputable section

namespace Cert.Gcn

open Idealize.ShloMosaic
open Cert.ReferenceIdeal Cert.ReferenceIdeal.Facts₀ Cert.ReferenceIdeal.Facts

variable {F : FTy → Type} [FloatOps F]

/-- Row `0` of the edge list (the sources) followed by the self loops. -/
def sourceRow (e : IVec S2x3200000 32) : IVec S3300000 32 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- Row `1` of the edge list (the destinations) followed by the self loops. -/
def destRow (e : IVec S2x3200000 32) : IVec S3300000 32 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node number read as jnp indexing reads it: a negative one counts from the end of the 100000 nodes. -/
def wrapIndex (idx : IVec S3300000 32) : IVec S3300000 32 :=
  select (cmpi .slt idx (broadcastInDim S3300000 ![] bcast_S_S3300000 (constantI S_ 32 0#32))) (addi idx (broadcastInDim S3300000 ![] bcast_S_S3300000 (constantI S_ 32 100000#32))) idx

/-- The degree of every node: ones added at the destinations. -/
def degree (col : IVec S3300000 32) : FVec F S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 col) (broadcastInDim S3300000 ![] bcast_S_S3300000 (constant S_ .f32 0x3F800000#32))

/-- The normalising factor of every node: `1 / sqrt (degree)` where the degree is positive, `0` elsewhere. -/
def invSqrtDegree (col : IVec S3300000 32) : FVec F S100000 .f32 :=
  select (cmpf (F := F) .ogt (degree col) (broadcastInDim S100000 ![] bcast_S_S100000 (constant S_ .f32 0x00000000#32))) (Host.rsqrt (degree col)) (broadcastInDim S100000 ![] bcast_S_S100000 (id (constant S_ .f32 0x00000000#32)))

/-- The weight of every edge: the product of the factors of its source and of its destination. -/
def edgeWeight (row col : IVec S3300000 32) : FVec F S3300000 .f32 :=
  mulf (Host.gather gather_S100000_S3300000x1_S3300000_n_0_n_n_0_1_1 (invSqrtDegree col) (broadcastInDim S3300000x1 ![0] bcast_S3300000_S3300000x1_0 (wrapIndex row))) (Host.gather gather_S100000_S3300000x1_S3300000_n_0_n_n_0_1_1 (invSqrtDegree col) (broadcastInDim S3300000x1 ![0] bcast_S3300000_S3300000x1_0 (wrapIndex col)))

/-- The aggregation: every node adds up, over the edges that end in it, the source's projected row times the edge's
    weight. -/
def aggregate (row col : IVec S3300000 32) (xw : FVec F S100000x3 .f32) : FVec F S100000x3 .f32 :=
  Host.scatterAdd scatter_S100000x3_S3300000x1_S3300000x3_1_0_0_1 (broadcastInDim S100000x3 ![] bcast_S_S100000x3 (constant S_ .f32 0x00000000#32)) (broadcastInDim S3300000x1 ![0] bcast_S3300000_S3300000x1_0 col) (mulf (Host.gather gather_S100000x3_S3300000x1_S3300000x3_1_0_n_n_0_1_13 xw (broadcastInDim S3300000x1 ![0] bcast_S3300000_S3300000x1_0 (wrapIndex row))) (broadcastInDim S3300000x3 ![0, 1] bcast_S3300000x1_S3300000x3_0_1 (broadcastInDim S3300000x1 ![0] bcast_S3300000_S3300000x1_0 (edgeWeight row col))))

end Cert.Gcn

end
-- ==== Proof.HostStretches.lean ====
/-
  The kernel program's host operations, read back.

  Between the launch and the projection kernel, and between the two kernels, the program runs stretches of host
  operations. Each buffer a later segment reads is followed back through them: no host operation writes an argument;
  the first stretch forms the source row and the destination row of the edge list; the stretches between the kernels
  form, from those two rows and from what the projection kernel left, the aggregation, and reshape the two biases to
  one-row matrices. None of this depends on what a float is, so it is stated for every reading of the floats.
-/
import proofs.«156523_j68951404970424_1_alg».proof.Proof.Gen.KernelIdeal.Frame
import proofs.«156523_j68951404970424_1_alg».proof.Proof.Aggregation

set_option maxRecDepth 16384

noncomputable section

namespace Cert.Gcn

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg) (c : Dev nD)

/-! ## Before the projection kernel -/

/-- The projection kernel finds `x` as launched. -/
theorem entry_x : (V1 m ρ c main_arg0 : S100000x128.Idx → F .f32) = m ((c.tc : Thread nD τ).loc main_arg0) := by
  show StableHlo.after hostOps0 (W0 m ρ c) (Proc.devRef .tc main_arg0) = _
  after_results_simp <;> rfl

/-- The projection kernel finds `W` as launched. -/
theorem entry_w : (V1 m ρ c main_arg2 : S128x3.Idx → F .f32) = m ((c.tc : Thread nD τ).loc main_arg2) := by
  show StableHlo.after hostOps0 (W0 m ρ c) (Proc.devRef .tc main_arg2) = _
  after_results_simp <;> rfl

/-- The source row, formed before the projection kernel and untouched by it. -/
theorem source_after : (W2 m ρ c (Proc.devRef .tc main_v3) : S3300000.Idx → BitVec 32)
    = sourceRow (m ((c.tc : Thread nD τ).loc main_arg1)) :=
  (W2_of_ne m ρ c main_v3 (by decide)).trans (by
    show StableHlo.after hostOps0 (W0 m ρ c) (Proc.devRef .tc main_v3) = _
    after_results_simp <;> rfl)

/-- The destination row, formed before the projection kernel and untouched by it. -/
theorem dest_after : (W2 m ρ c (Proc.devRef .tc main_v6) : S3300000.Idx → BitVec 32)
    = destRow (m ((c.tc : Thread nD τ).loc main_arg1)) :=
  (W2_of_ne m ρ c main_v6 (by decide)).trans (by
    show StableHlo.after hostOps0 (W0 m ρ c) (Proc.devRef .tc main_v6) = _
    after_results_simp <;> rfl)

/-- An argument the projection kernel does not touch is still as launched after it. -/
theorem arg3_after : (W2 m ρ c (Proc.devRef .tc main_arg3) : S3.Idx → F .f32) = m ((c.tc : Thread nD τ).loc main_arg3) :=
  (W2_of_ne m ρ c main_arg3 (by decide)).trans (by
    show StableHlo.after hostOps0 (W0 m ρ c) (Proc.devRef .tc main_arg3) = _
    after_results_simp <;> rfl)
theorem arg4_after : (W2 m ρ c (Proc.devRef .tc main_arg4) : S3x4.Idx → F .f32) = m ((c.tc : Thread nD τ).loc main_arg4) :=
  (W2_of_ne m ρ c main_arg4 (by decide)).trans (by
    show StableHlo.after hostOps0 (W0 m ρ c) (Proc.devRef .tc main_arg4) = _
    after_results_simp <;> rfl)
theorem arg5_after : (W2 m ρ c (Proc.devRef .tc main_arg5) : S4.Idx → F .f32) = m ((c.tc : Thread nD τ).loc main_arg5) :=
  (W2_of_ne m ρ c main_arg5 (by decide)).trans (by
    show StableHlo.after hostOps0 (W0 m ρ c) (Proc.devRef .tc main_arg5) = _
    after_results_simp <;> rfl)

/-! ## Between the kernels -/

set_option maxHeartbeats 1000000 in
/-- The output kernel finds the aggregation of what the projection kernel left, along the two rows. -/
theorem agg_entry : (V5 m ρ c main_v43 : S100000x3.Idx → F .f32)
    = aggregate (F := F) (W2 m ρ c (Proc.devRef .tc main_v3)) (W2 m ρ c (Proc.devRef .tc main_v6)) (W2 m ρ c (Proc.devRef .tc main_v7)) := by
  show StableHlo.after hostOps1_2 (StableHlo.after hostOps1_1 (StableHlo.after hostOps1 (W2 m ρ c))) (Proc.devRef .tc main_v43) = _
  after_results_simp <;> rfl

set_option maxHeartbeats 1000000 in
/-- The output kernel finds the hidden layer's bias reshaped to a one-row matrix. -/
theorem brow_entry : (V5 m ρ c main_v44 : S1x3.Idx → F .f32)
    = shapeCast S1x3 (W2 m ρ c (Proc.devRef .tc main_arg3) : S3.Idx → F .f32) Facts₀.shapeCasts_S3_S1x3 := by
  show StableHlo.after hostOps1_2 (StableHlo.after hostOps1_1 (StableHlo.after hostOps1 (W2 m ρ c))) (Proc.devRef .tc main_v44) = _
  after_results_simp <;> rfl

set_option maxHeartbeats 1000000 in
/-- The output kernel finds the output layer's bias reshaped to a one-row matrix. -/
theorem orow_entry : (V5 m ρ c main_v45 : S1x4.Idx → F .f32)
    = shapeCast S1x4 (W2 m ρ c (Proc.devRef .tc main_arg5) : S4.Idx → F .f32) Facts₀.shapeCasts_S4_S1x4 := by
  show StableHlo.after hostOps1_2 (StableHlo.after hostOps1_1 (StableHlo.after hostOps1 (W2 m ρ c))) (Proc.devRef .tc main_v45) = _
  after_results_simp <;> rfl

set_option maxHeartbeats 1000000 in
/-- The output kernel finds `Wout` as the projection kernel left it. -/
theorem wout_entry : (V5 m ρ c main_arg4 : S3x4.Idx → F .f32) = W2 m ρ c (Proc.devRef .tc main_arg4) := by
  show StableHlo.after hostOps1_2 (StableHlo.after hostOps1_1 (StableHlo.after hostOps1 (W2 m ρ c))) (Proc.devRef .tc main_arg4) = _
  after_results_simp <;> rfl

end Cert.Gcn

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.LibBroadcastInDim.lean ====
/-
  `broadcast_in_dim` read at an index, for four shapes a host program takes a row statistic or a bias through
  (the library has the fifth, a scalar spread over any shape): a vector written as a column; a column repeated along every column; a vector written
  as a one-row matrix; a one-row matrix repeated down every row. In each the entry of the result at an index is the
  operand's entry at the coordinates the operand has.
-/
import Idealize.ShloMosaic.Lib.Pipeline.Value
import Idealize.ShloMosaic.Lib.ValueIdx

namespace Idealize.ShloMosaic.ValueIdx

variable {α : Type}

/-- An `[a]` vector written as the column `[a, 1]` (its axis sent to axis 0) reads, at `(p, u)`, the vector at `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ (![0] : Fin 1 → Fin 2) h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- An `[a, 1]` column repeated along the columns of `[a, b]` (axes kept in place) reads, at `(p, c)`, the column at row `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (![0, 1] : Fin 2 → Fin 2) h x (ix2 p c) = x (ix2 p (0 : Fin 1)) :=
  broadcastInDim_apply _ h x (ix2 p c) (ix2 p (0 : Fin 1)) fun ax => by
    match ax with
    | ⟨0, _⟩ =>
      show p.val = if a = 1 then 0 else p.val
      split
      · have := p.isLt; omega
      · rfl
    | ⟨1, _⟩ => rfl

/-- A `[b]` vector written as the one-row matrix `[1, b]` (its axis sent to axis 1) reads, at `(u, c)`, the vector at `c`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) :=
  broadcastInDim_apply _ h x (ix2 u c) (ix1 c) fun ax => by
    match ax with
    | ⟨0, _⟩ =>
      show c.val = if b = 1 then 0 else c.val
      split
      · have := c.isLt; omega
      · rfl

/-- A `[1, b]` one-row matrix repeated down the rows of `[a, b]` reads, at `(p, c)`, the row at column `c`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ (![0, 1] : Fin 2 → Fin 2) h x (ix2 p c) = x (ix2 (0 : Fin 1) c) :=
  broadcastInDim_apply _ h x (ix2 p c) (ix2 (0 : Fin 1) c) fun ax => by
    match ax with
    | ⟨0, _⟩ => rfl
    | ⟨1, _⟩ =>
      show c.val = if b = 1 then 0 else c.val
      split
      · have := c.isLt; omega
      · rfl

end Idealize.ShloMosaic.ValueIdx
-- ==== Proof.DenseStages.lean ====
/-
  The three dense stages of the network, read at an index.

  Around the sparse aggregation the program has three dense stages, each over the 100000 node rows:
    * the projection      xw[e, q] = Σ_k x[e, k] · W[k, q]                      (k over the 128 input features),
    * the hidden layer    h[e, q]  = max (agg[e, q] + b[q], 0),
    * the output layer    z[e, q]  = Σ_k h[e, k] · Wout[k, q] + bout[q]         (k over the 3 hidden features).
  They are stated here as the host computes them (a product of two matrices; a bias given as a one-row matrix and
  repeated down the rows; a maximum with the zero constant) and each is read at an entry `(e, q)`. The kernels
  compute the same three stages on blocks of 5000 rows: what a kernel stores for a block, read at an entry `(p, q)`
  of the block, is the same expression of the block's rows. A product into a zero accumulator is the plain sum, and a
  change of float format on the way into a product does not change an exact value, so the two sides' sums have the
  same terms.
-/
import proofs.«156523_j68951404970424_1_alg».proof.Proof.Gen.KernelIdeal.Skeleton
import proofs.«156523_j68951404970424_1_alg».proof.Proof.Gen.ReferenceIdeal
import proofs.«156523_j68951404970424_1_alg».proof.Proof.LibDense
import proofs.«156523_j68951404970424_1_alg».proof.Proof.LibBroadcastInDim
import Idealize.ShloMosaic.Lib.ValueLayout
import Idealize.ShloMosaic.Lib.IdealHost
import Idealize.ShloMosaic.PureOps.Ideal.Laws

noncomputable section

namespace Cert.Gcn

open Idealize.ShloMosaic Idealize.ShloMosaic.ValueIdx
open Cert.ReferenceIdeal Cert.ReferenceIdeal.Facts₀ Cert.ReferenceIdeal.Facts

/-! ## The stages as the host computes them -/

/-- The projection `x · W`. -/
def proj (x : FVec Ideal S100000x128 .f32) (w : FVec Ideal S128x3 .f32) : FVec Ideal S100000x3 .f32 :=
  Host.dotGeneral dot_S100000x128_S128x3_S100000x3_1_0_0_1_n_n none x w

/-- The hidden layer `max (agg + b, 0)`, the bias given as a one-row matrix. -/
def hidden (agg : FVec Ideal S100000x3 .f32) (brow : FVec Ideal S1x3 .f32) : FVec Ideal S100000x3 .f32 :=
  maximumf (addf agg (broadcastInDim S100000x3 ![0, 1] bcast_S1x3_S100000x3_0_1 brow))
    (broadcastInDim S100000x3 ![] bcast_S_S100000x3 (constant (F := Ideal) S_ .f32 0x00000000#32))

/-- The output layer `h · Wout + bout`, the bias given as a one-row matrix. -/
def output (h : FVec Ideal S100000x3 .f32) (wout : FVec Ideal S3x4 .f32) (orow : FVec Ideal S1x4 .f32) : FVec Ideal S100000x4 .f32 :=
  addf (Host.dotGeneral dot_S100000x3_S3x4_S100000x4_1_0_0_1_n_n none h wout)
    (broadcastInDim S100000x4 ![0, 1] bcast_S1x4_S100000x4_0_1 orow)

/-- Entry `(e, q)` of the projection: row `e` of `x` against column `q` of `W`. -/
theorem proj_apply (x : FVec Ideal S100000x128 .f32) (w : FVec Ideal S128x3 .f32) (e : Fin 100000) (q : Fin 3) :
    proj x w (ix2 e q) = ∑ k : Fin 128, x (ix2 e k) * w (ix2 k q) :=
  dotGeneral_plain_apply dot_S100000x128_S128x3_S100000x3_1_0_0_1_n_n none .single rfl rfl
    (fun _ _ => rfl) (fun i k => DotDims.lhsIdx_val_of_single _ rfl i k)
    (fun i k => DotDims.rhsIdx_val_of_single _ rfl i k) (fun _ _ => rfl) x w e q

/-- Entry `(e, q)` of the hidden layer. -/
theorem hidden_apply (agg : FVec Ideal S100000x3 .f32) (brow : FVec Ideal S1x3 .f32) (e : Fin 100000) (q : Fin 3) :
    hidden agg brow (ix2 e q) = max (agg (ix2 e q) + brow (ix2 (0 : Fin 1) q)) (Ideal.ofBits .f32 0x00000000#32) := by
  unfold hidden
  rw [maximumf_apply, addf_apply, broadcastInDim_1b_ab_apply, broadcastInDim_scalar_apply]
  rfl

/-- Entry `(e, q)` of the output layer: row `e` of `h` against column `q` of `Wout`, plus the bias. -/
theorem output_apply (h : FVec Ideal S100000x3 .f32) (wout : FVec Ideal S3x4 .f32) (orow : FVec Ideal S1x4 .f32)
    (e : Fin 100000) (q : Fin 4) :
    output h wout orow (ix2 e q) = (∑ k : Fin 3, h (ix2 e k) * wout (ix2 k q)) + orow (ix2 (0 : Fin 1) q) := by
  unfold output
  rw [addf_apply, broadcastInDim_1b_ab_apply]
  refine congrArg (· + orow (ix2 (0 : Fin 1) q)) ?_
  exact dotGeneral_plain_apply dot_S100000x3_S3x4_S100000x4_1_0_0_1_n_n none .single rfl rfl
    (fun _ _ => rfl) (fun i k => DotDims.lhsIdx_val_of_single _ rfl i k)
    (fun i k => DotDims.rhsIdx_val_of_single _ rfl i k) (fun _ _ => rfl) h wout e q

/-! ## What the kernels store for a block of 5000 rows -/

/-- The node row that row `p` of block `t` is: both kernels run over twenty blocks of 5000 rows. -/
def blockRow (t : Fin 20) (p : Fin 5000) : Fin 100000 :=
  ⟨t.val * 5000 + p.val, by have := t.isLt; have := p.isLt; omega⟩

/-- A kernel reads and writes each staging buffer whole, from its corner. -/
theorem offsets_zero : (![0, 0] : Fin 2 → Nat) = fun _ => 0 := funext fun a => by fin_cases a <;> rfl

/-- The projection kernel's store, at entry `(p, q)` of the block: row `p` of the block of `x` against column `q` of `W`. -/
theorem proj_block (x0 : Vec Ideal Cert.KernelIdeal.S5000x128 .f32) (x1 : Vec Ideal Cert.KernelIdeal.S128x3 .f32)
    (p : Fin 5000) (q : Fin 3) :
    Cert.KernelIdeal.Gen.k0_pay1 (F := Ideal) x0 x1 (ix2 p q) = ∑ k : Fin 128, x0 (ix2 p k) * x1 (ix2 k q) := by
  unfold Cert.KernelIdeal.Gen.k0_pay1
  exact matmul_zero_plain_apply Cert.KernelIdeal.dot_S5000x128_S128x3_S5000x3_1_0_0_1_n_n none rfl rfl
    (fun _ _ => rfl) (fun i k => DotDims.lhsIdx_val_of_single _ rfl i k)
    (fun i k => DotDims.rhsIdx_val_of_single _ rfl i k) (fun _ _ => rfl) _ _ p q

/-- The output kernel's first store (the hidden layer), at entry `(p, q)` of the block. -/
theorem hidden_block (x0 : Vec Ideal Cert.KernelIdeal.S5000x3 .f32) (x1 : Vec Ideal Cert.KernelIdeal.S1x3 .f32)
    (p : Fin 5000) (q : Fin 3) :
    Cert.KernelIdeal.Gen.k1_pay1 (F := Ideal) x0 x1 (ix2 p q)
      = max (x0 (ix2 p q) + x1 (ix2 (0 : Fin 1) q)) (Ideal.ofBits .f32 0x00000000#32) := by
  unfold Cert.KernelIdeal.Gen.k1_pay1
  rw [maximumf_apply, addf_apply, shapeCast_self, shapeCast_self, broadcastTo_1b_ab_apply, broadcast_apply]
  rfl

/-- The output kernel's second store (the output layer), at entry `(p, q)` of the block: row `p` of the hidden layer's
    block against column `q` of `Wout`, plus the bias. -/
theorem output_block (x0 : Vec Ideal Cert.KernelIdeal.S5000x3 .f32) (x1 : Vec Ideal Cert.KernelIdeal.S1x3 .f32)
    (x2 : Vec Ideal Cert.KernelIdeal.S3x4 .f32) (x3 : Vec Ideal Cert.KernelIdeal.S1x4 .f32) (p : Fin 5000) (q : Fin 4) :
    Cert.KernelIdeal.Gen.k1_pay2 (F := Ideal) x0 x1 x2 x3 (ix2 p q)
      = (∑ k : Fin 3, Cert.KernelIdeal.Gen.k1_pay1 (F := Ideal) x0 x1 (ix2 p k) * x2 (ix2 k q)) + x3 (ix2 (0 : Fin 1) q) := by
  unfold Cert.KernelIdeal.Gen.k1_pay2
  rw [addf_apply, shapeCast_self, broadcastTo_1b_ab_apply]
  refine congrArg (· + x3 (ix2 (0 : Fin 1) q)) ?_
  exact matmul_zero_plain_apply Cert.KernelIdeal.dot_S5000x3_S3x4_S5000x4_1_0_0_1_n_n none rfl rfl
    (fun _ _ => rfl) (fun i k => DotDims.lhsIdx_val_of_single _ rfl i k)
    (fun i k => DotDims.rhsIdx_val_of_single _ rfl i k) (fun _ _ => rfl) _ _ p q

end Cert.Gcn

end
-- ==== Proof.ProjectionRegion.lean ====
/-
  The projection kernel, from blocks to the whole array.

  The kernel runs over twenty blocks of 5000 node rows. At block `t` it reads rows `5000 t … 5000 t + 4999` of `x` and
  the whole of `W`, and writes back rows `5000 t … 5000 t + 4999` of its result: the product of the block of `x` with
  `W`. Row `5000 t + p` of the product `x · W` depends on row `5000 t + p` of `x` only, so what block `t` writes back
  is block `t` of `x · W`; the twenty blocks cover the 100000 rows (row `r` lies in block `r / 5000`), so the array
  the kernel leaves is `x · W` of the arrays it found.
-/
import proofs.«156523_j68951404970424_1_alg».proof.Proof.Gen.KernelIdeal.Frame
import proofs.«156523_j68951404970424_1_alg».proof.Proof.DenseStages
import Idealize.ShloMosaic.Lib.Pipeline.Value

set_option maxRecDepth 16384

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen

/-- The three index maps over the grid: `x` and the result move one block of rows per point, `W` stays. -/
theorem proj_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry `(p, k)` of block `t` of `x` is entry `(5000 t + p, k)` of `x`. -/
theorem x_block_apply (c : Dev nD) (t : Fin cfg0.N) (p : Fin 5000) (k : Fin 128) :
    (iblk0 V c 0 t : Vec Ideal S5000x128 .f32) (ix2 p k)
      = (V c main_arg0 : S100000x128.Idx → EReal) (ix2 (blockRow (t.cast N_0) p) k) := by
  obtain ⟨e0, e1, -⟩ := proj_maps t
  show (V c main_arg0 : S100000x128.Idx → EReal) (((cfg0.win 0).blk t).view.emb (ix2 p k)) = _
  refine congrArg (V c main_arg0 : S100000x128.Idx → EReal) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The block of `W` is `W`. -/
theorem w_block_apply (c : Dev nD) (t : Fin cfg0.N) (k : Fin 128) (q : Fin 3) :
    (iblk0 V c 1 t : Vec Ideal S128x3 .f32) (ix2 k q) = (V c main_arg2 : S128x3.Idx → EReal) (ix2 k q) := by
  obtain ⟨-, -, e2, e3, -⟩ := proj_maps t
  show (V c main_arg2 : S128x3.Idx → EReal) (((cfg0.win 1).blk t).view.emb (ix2 k q)) = _
  refine congrArg (V c main_arg2 : S128x3.Idx → EReal) (funext fun a => Fin.ext ?_)
  match a with
  | ⟨0, _⟩ => show win0_1.index t (0 : Fin 2) * 128 + 1 * k.val = k.val; omega
  | ⟨1, _⟩ => show win0_1.index t (1 : Fin 2) * 3 + 1 * q.val = q.val; omega

/-- Entry `(p, q)` of the result's block `t` sits at `(5000 t + p, q)` of the result. -/
theorem xw_block_emb (t : Fin cfg0.N) (p : Fin 5000) (q : Fin 3) :
    (((cfg0.win 2).blk t).view.emb (ix2 p q) : S100000x3.Idx) = ix2 (blockRow (t.cast N_0) p) q := by
  obtain ⟨-, -, -, -, e4, e5⟩ := proj_maps t
  refine funext fun a => Fin.ext ?_
  match a with
  | ⟨0, _⟩ => show win0_2.index t (0 : Fin 2) * 5000 + 1 * p.val = t.val * 5000 + p.val; omega
  | ⟨1, _⟩ => show win0_2.index t (1 : Fin 2) * 3 + 1 * q.val = q.val; omega

/-- What point `t` writes back is block `t` of `x · W`. -/
theorem proj_flushed (c : Dev nD) (t : Fin cfg0.N) :
    (dat0 V c).flushed 2 t
      = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x128) offsets_zero, View.ld_unit_zero (S := S128x3) offsets_zero]
  refine funext fun (y : S5000x3.Idx) => ?_
  obtain ⟨p, q, rfl⟩ : ∃ (p : Fin 5000) (q : Fin 3), y = ix2 p q := ⟨y 0, y 1, eq_ix2 y⟩
  show k0_pay1 (F := Ideal) (iblk0 V c 0 t) (iblk0 V c 1 t) (ix2 p q)
    = proj (V c main_arg0) (V c main_arg2) (((cfg0.win 2).blk t).view.emb (ix2 p q))
  rw [xw_block_emb t p q, proj_apply]
  refine (proj_block (iblk0 V c 0 t) (iblk0 V c 1 t) p q).trans ?_
  refine Finset.sum_congr rfl fun k _ => ?_
  rw [x_block_apply V c t p k, w_block_apply V c t k q]

/-- An index of the result is in point `t`'s block iff its row is one of the block's 5000 rows. -/
theorem mem_xw_block (t : Fin cfg0.N) (i : S100000x3.Idx) :
    i ∈ ((cfg0.win 2).blk t).view.set ↔ ∀ a : Fin 2, win0_2.index t a * S5000x3.size a ≤ (i a).val
      ∧ (i a).val < win0_2.index t a * S5000x3.size a + S5000x3.size a := by
  show i ∈ ((View.whole main_v7).slice (win0_2.rect t)).set ↔ _
  rw [View.set_slice_whole, Rect.mem_set_unit]
  exact Iff.rfl

/-- Every row is in some point's block: row `r` in block `r / 5000`. -/
theorem xw_cover (i : S100000x3.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 3 := (i 1).isLt
  let t : Fin cfg0.N := ⟨(i 0).val / 5000, by omega⟩
  obtain ⟨-, -, -, -, e4, e5⟩ := proj_maps t
  have ht : t.val = (i 0).val / 5000 := rfl
  refine ⟨t, flush0_2 t, ?_⟩
  rw [mem_xw_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 3 ≤ (i 1).val ∧ (i 1).val < win0_2.index t (1 : Fin 2) * 3 + 3; omega

/-- The array the projection kernel leaves is `x · W` of the arrays it found. -/
theorem proj_final (c : Dev nD) :
    (dat0 V c).arrAt 2 cfg0.N = proj (V c main_arg0) (V c main_arg2) :=
  (dat0 V c).arrAt_eq_of_cover 2 (proj (V c main_arg0) (V c main_arg2)) (fun t _ => proj_flushed V c t) xw_cover

end Cert.Gcn

end
-- ==== Proof.OutputRegion.lean ====
/-
  The output kernel, from blocks to the two whole arrays.

  The kernel runs over twenty blocks of 5000 node rows. At block `t` it reads rows `5000 t … 5000 t + 4999` of the
  aggregated features, the two biases (each a one-row matrix) and the whole of `Wout`, and writes back the same rows
  of its two results: the hidden layer `max (agg + b, 0)` of the block, and that block of the hidden layer times
  `Wout` plus `bout`. Row `5000 t + p` of either result depends on row `5000 t + p` of the aggregated features only,
  so what block `t` writes back is block `t` of the whole-array stage; the twenty blocks cover the 100000 rows, so the
  two arrays the kernel leaves are the hidden layer and the output layer of the arrays it found.
-/
import proofs.«156523_j68951404970424_1_alg».proof.Proof.Gen.KernelIdeal.Frame
import proofs.«156523_j68951404970424_1_alg».proof.Proof.DenseStages
import Idealize.ShloMosaic.Lib.Pipeline.Value

set_option maxRecDepth 16384

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen

/-- The six index maps over the grid: the aggregated features and the two results move one block of rows per point,
    the biases and `Wout` stay. -/
theorem out_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Entry `(p, q)` of block `t` of the aggregated features is entry `(5000 t + p, q)` of them. -/
theorem agg_block_apply (c : Dev nD) (t : Fin cfg1.N) (p : Fin 5000) (q : Fin 3) :
    (iblk1 V c 0 t : Vec Ideal S5000x3 .f32) (ix2 p q)
      = (V c main_v43 : S100000x3.Idx → EReal) (ix2 (blockRow (t.cast N_1) p) q) := by
  obtain ⟨e0, e1, -⟩ := out_maps t
  show (V c main_v43 : S100000x3.Idx → EReal) (((cfg1.win 0).blk t).view.emb (ix2 p q)) = _
  refine congrArg (V c main_v43 : S100000x3.Idx → EReal) (funext fun a => Fin.ext ?_)
  match a with
  | ⟨0, _⟩ => show win1_0.index t (0 : Fin 2) * 5000 + 1 * p.val = t.val * 5000 + p.val; omega
  | ⟨1, _⟩ => show win1_0.index t (1 : Fin 2) * 3 + 1 * q.val = q.val; omega

/-- The block of the hidden layer's bias row is the row. -/
theorem brow_block_apply (c : Dev nD) (t : Fin cfg1.N) (u : Fin 1) (q : Fin 3) :
    (iblk1 V c 1 t : Vec Ideal S1x3 .f32) (ix2 u q) = (V c main_v44 : S1x3.Idx → EReal) (ix2 u q) := by
  obtain ⟨-, -, e2, e3, -⟩ := out_maps t
  show (V c main_v44 : S1x3.Idx → EReal) (((cfg1.win 1).blk t).view.emb (ix2 u q)) = _
  refine congrArg (V c main_v44 : S1x3.Idx → EReal) (funext fun a => Fin.ext ?_)
  match a with
  | ⟨0, _⟩ => show win1_1.index t (0 : Fin 2) * 1 + 1 * u.val = u.val; omega
  | ⟨1, _⟩ => show win1_1.index t (1 : Fin 2) * 3 + 1 * q.val = q.val; omega

/-- The block of `Wout` is `Wout`. -/
theorem wout_block_apply (c : Dev nD) (t : Fin cfg1.N) (k : Fin 3) (q : Fin 4) :
    (iblk1 V c 2 t : Vec Ideal S3x4 .f32) (ix2 k q) = (V c main_arg4 : S3x4.Idx → EReal) (ix2 k q) := by
  obtain ⟨-, -, -, -, e4, e5, -⟩ := out_maps t
  show (V c main_arg4 : S3x4.Idx → EReal) (((cfg1.win 2).blk t).view.emb (ix2 k q)) = _
  refine congrArg (V c main_arg4 : S3x4.Idx → EReal) (funext fun a => Fin.ext ?_)
  match a with
  | ⟨0, _⟩ => show win1_2.index t (0 : Fin 2) * 3 + 1 * k.val = k.val; omega
  | ⟨1, _⟩ => show win1_2.index t (1 : Fin 2) * 4 + 1 * q.val = q.val; omega

/-- The block of the output layer's bias row is the row. -/
theorem orow_block_apply (c : Dev nD) (t : Fin cfg1.N) (u : Fin 1) (q : Fin 4) :
    (iblk1 V c 3 t : Vec Ideal S1x4 .f32) (ix2 u q) = (V c main_v45 : S1x4.Idx → EReal) (ix2 u q) := by
  obtain ⟨-, -, -, -, -, -, e6, e7, -⟩ := out_maps t
  show (V c main_v45 : S1x4.Idx → EReal) (((cfg1.win 3).blk t).view.emb (ix2 u q)) = _
  refine congrArg (V c main_v45 : S1x4.Idx → EReal) (funext fun a => Fin.ext ?_)
  match a with
  | ⟨0, _⟩ => show win1_3.index t (0 : Fin 2) * 1 + 1 * u.val = u.val; omega
  | ⟨1, _⟩ => show win1_3.index t (1 : Fin 2) * 4 + 1 * q.val = q.val; omega

/-- Entry `(p, q)` of the hidden layer's block `t` sits at `(5000 t + p, q)` of the hidden layer. -/
theorem h_block_emb (t : Fin cfg1.N) (p : Fin 5000) (q : Fin 3) :
    (((cfg1.win 4).blk t).view.emb (ix2 p q) : S100000x3.Idx) = ix2 (blockRow (t.cast N_1) p) q := by
  obtain ⟨-, -, -, -, -, -, -, -, e8, e9, -⟩ := out_maps t
  refine funext fun a => Fin.ext ?_
  match a with
  | ⟨0, _⟩ => show win1_4.index t (0 : Fin 2) * 5000 + 1 * p.val = t.val * 5000 + p.val; omega
  | ⟨1, _⟩ => show win1_4.index t (1 : Fin 2) * 3 + 1 * q.val = q.val; omega

/-- Entry `(p, q)` of the output layer's block `t` sits at `(5000 t + p, q)` of the output layer. -/
theorem z_block_emb (t : Fin cfg1.N) (p : Fin 5000) (q : Fin 4) :
    (((cfg1.win 5).blk t).view.emb (ix2 p q) : S100000x4.Idx) = ix2 (blockRow (t.cast N_1) p) q := by
  obtain ⟨-, -, -, -, -, -, -, -, -, -, e10, e11⟩ := out_maps t
  refine funext fun a => Fin.ext ?_
  match a with
  | ⟨0, _⟩ => show win1_5.index t (0 : Fin 2) * 5000 + 1 * p.val = t.val * 5000 + p.val; omega
  | ⟨1, _⟩ => show win1_5.index t (1 : Fin 2) * 4 + 1 * q.val = q.val; omega

/-- The hidden layer's entry from a block of the aggregated features and the bias row, as the whole-array stage reads it. -/
theorem hidden_block_entry (c : Dev nD) (t : Fin cfg1.N) (p : Fin 5000) (q : Fin 3) :
    k1_pay1 (F := Ideal) (iblk1 V c 0 t) (iblk1 V c 1 t) (ix2 p q)
      = hidden (V c main_v43) (V c main_v44) (ix2 (blockRow (t.cast N_1) p) q) := by
  rw [hidden_apply]
  refine (hidden_block (iblk1 V c 0 t) (iblk1 V c 1 t) p q).trans ?_
  rw [agg_block_apply V c t p q, brow_block_apply V c t 0 q]

/-- What point `t` writes back to the first result is block `t` of the hidden layer. -/
theorem hidden_flushed (c : Dev nD) (t : Fin cfg1.N) :
    (dat1 V c).flushed 4 t
      = ((cfg1.win 4).blk t).view.read (Elt Ideal) (hidden (V c main_v43) (V c main_v44)) := by
  show (cfg1.win 4).cut (grid1.coords t) ((dat1 V c).after 4 t) = _
  rw [after1_4]
  unfold out1_4
  rw [View.canon_unit_zero offsets_zero]
  simp only [View.ld_unit_zero (S := S5000x3) offsets_zero, View.ld_unit_zero (S := S1x3) offsets_zero]
  refine funext fun (y : S5000x3.Idx) => ?_
  obtain ⟨p, q, rfl⟩ : ∃ (p : Fin 5000) (q : Fin 3), y = ix2 p q := ⟨y 0, y 1, eq_ix2 y⟩
  show k1_pay1 (F := Ideal) (iblk1 V c 0 t) (iblk1 V c 1 t) (ix2 p q)
    = hidden (V c main_v43) (V c main_v44) (((cfg1.win 4).blk t).view.emb (ix2 p q))
  rw [h_block_emb t p q]
  exact hidden_block_entry V c t p q

/-- What point `t` writes back to the second result is block `t` of the output layer. -/
theorem output_flushed (c : Dev nD) (t : Fin cfg1.N) :
    (dat1 V c).flushed 5 t
      = ((cfg1.win 5).blk t).view.read (Elt Ideal)
          (output (hidden (V c main_v43) (V c main_v44)) (V c main_arg4) (V c main_v45)) := by
  show (cfg1.win 5).cut (grid1.coords t) ((dat1 V c).after 5 t) = _
  rw [after1_5]
  unfold out1_5
  rw [View.canon_unit_zero offsets_zero]
  simp only [View.ld_unit_zero (S := S5000x3) offsets_zero, View.ld_unit_zero (S := S1x3) offsets_zero,
    View.ld_unit_zero (S := S3x4) offsets_zero, View.ld_unit_zero (S := S1x4) offsets_zero]
  refine funext fun (y : S5000x4.Idx) => ?_
  obtain ⟨p, q, rfl⟩ : ∃ (p : Fin 5000) (q : Fin 4), y = ix2 p q := ⟨y 0, y 1, eq_ix2 y⟩
  show k1_pay2 (F := Ideal) (iblk1 V c 0 t) (iblk1 V c 1 t) (iblk1 V c 2 t) (iblk1 V c 3 t) (ix2 p q)
    = output (hidden (V c main_v43) (V c main_v44)) (V c main_arg4) (V c main_v45) (((cfg1.win 5).blk t).view.emb (ix2 p q))
  rw [z_block_emb t p q, output_apply]
  refine (output_block (iblk1 V c 0 t) (iblk1 V c 1 t) (iblk1 V c 2 t) (iblk1 V c 3 t) p q).trans ?_
  rw [orow_block_apply V c t 0 q]
  refine congrArg (· + (V c main_v45 : S1x4.Idx → EReal) (ix2 (0 : Fin 1) q)) (Finset.sum_congr rfl fun k _ => ?_)
  rw [wout_block_apply V c t k q, hidden_block_entry V c t p k]

/-- An index of the first result is in point `t`'s block iff its row is one of the block's 5000 rows. -/
theorem mem_h_block (t : Fin cfg1.N) (i : S100000x3.Idx) :
    i ∈ ((cfg1.win 4).blk t).view.set ↔ ∀ a : Fin 2, win1_4.index t a * S5000x3.size a ≤ (i a).val
      ∧ (i a).val < win1_4.index t a * S5000x3.size a + S5000x3.size a := by
  show i ∈ ((View.whole main_v46_0).slice (win1_4.rect t)).set ↔ _
  rw [View.set_slice_whole, Rect.mem_set_unit]
  exact Iff.rfl

/-- An index of the second result is in point `t`'s block iff its row is one of the block's 5000 rows. -/
theorem mem_z_block (t : Fin cfg1.N) (i : S100000x4.Idx) :
    i ∈ ((cfg1.win 5).blk t).view.set ↔ ∀ a : Fin 2, win1_5.index t a * S5000x4.size a ≤ (i a).val
      ∧ (i a).val < win1_5.index t a * S5000x4.size a + S5000x4.size a := by
  show i ∈ ((View.whole main_v46_1).slice (win1_5.rect t)).set ↔ _
  rw [View.set_slice_whole, Rect.mem_set_unit]
  exact Iff.rfl

/-- Every row of the first result is in some point's block: row `r` in block `r / 5000`. -/
theorem h_cover (i : S100000x3.Idx) :
    ∃ t : Fin cfg1.N, (cfg1.win 4).flush t = true ∧ i ∈ ((cfg1.win 4).blk t).view.set := by
  have hN : cfg1.N = 20 := N_1
  have hi0 : (i 0).val < 100000 := (i 0).isLt
  have hi1 : (i 1).val < 3 := (i 1).isLt
  let t : Fin cfg1.N := ⟨(i 0).val / 5000, by omega⟩
  obtain ⟨-, -, -, -, -, -, -, -, e8, e9, -⟩ := out_maps t
  have ht : t.val = (i 0).val / 5000 := rfl
  refine ⟨t, flush1_4 t, ?_⟩
  rw [mem_h_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 3 ≤ (i 1).val ∧ (i 1).val < win1_4.index t (1 : Fin 2) * 3 + 3; omega

/-- Every row of the second result is in some point's block. -/
theorem z_cover (i : S100000x4.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 4 := (i 1).isLt
  let t : Fin cfg1.N := ⟨(i 0).val / 5000, by omega⟩
  obtain ⟨-, -, -, -, -, -, -, -, -, -, e10, e11⟩ := out_maps t
  have ht : t.val = (i 0).val / 5000 := rfl
  refine ⟨t, flush1_5 t, ?_⟩
  rw [mem_z_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 4 ≤ (i 1).val ∧ (i 1).val < win1_5.index t (1 : Fin 2) * 4 + 4; omega

/-- The first array the output kernel leaves is the hidden layer of the arrays it found. -/
theorem hidden_final (c : Dev nD) :
    (dat1 V c).arrAt 4 cfg1.N = hidden (V c main_v43) (V c main_v44) :=
  (dat1 V c).arrAt_eq_of_cover 4 (hidden (V c main_v43) (V c main_v44)) (fun t _ => hidden_flushed V c t) h_cover

/-- The second array the output kernel leaves is the output layer of the arrays it found. -/
theorem output_final (c : Dev nD) :
    (dat1 V c).arrAt 5 cfg1.N = output (hidden (V c main_v43) (V c main_v44)) (V c main_arg4) (V c main_v45) :=
  (dat1 V c).arrAt_eq_of_cover 5 (output (hidden (V c main_v43) (V c main_v44)) (V c main_arg4) (V c main_v45))
    (fun t _ => output_flushed V c t) z_cover

end Cert.Gcn

end
-- ==== Proof.Network.lean ====
/-
  The network as one function of its six argument arrays.

  With `x` the node features, `e` the edge list, `W`, `b` the first layer's weights and bias and `Wout`, `bout` the
  second's:
      hidden = max (aggregate (x · W) + b, 0),      output = hidden · Wout + bout,
  the aggregation taken along the edges of `e` extended by the self loops, with the symmetric degree normalisation.
  Both programs end with their two results at these two functions of their arguments.
-/
import proofs.«156523_j68951404970424_1_alg».proof.Proof.DenseStages
import proofs.«156523_j68951404970424_1_alg».proof.Proof.Aggregation

noncomputable section

namespace Cert.Gcn

open Idealize.ShloMosaic
open Cert.ReferenceIdeal Cert.ReferenceIdeal.Facts₀ Cert.ReferenceIdeal.Facts

/-- The hidden layer. -/
def hiddenOf (x : FVec Ideal S100000x128 .f32) (e : IVec S2x3200000 32) (w : FVec Ideal S128x3 .f32) (b : FVec Ideal S3 .f32) :
    FVec Ideal S100000x3 .f32 :=
  hidden (aggregate (F := Ideal) (sourceRow e) (destRow e) (proj x w)) (broadcastInDim S1x3 ![1] bcast_S3_S1x3_1 b)

/-- The output layer. -/
def outputOf (x : FVec Ideal S100000x128 .f32) (e : IVec S2x3200000 32) (w : FVec Ideal S128x3 .f32) (b : FVec Ideal S3 .f32)
    (wout : FVec Ideal S3x4 .f32) (bout : FVec Ideal S4 .f32) : FVec Ideal S100000x4 .f32 :=
  output (hiddenOf x e w b) wout (broadcastInDim S1x4 ![1] bcast_S4_S1x4_1 bout)

end Cert.Gcn

end
-- ==== Proof.LibRowMatrix.lean ====
/-
  A vector written as a one-row matrix, two ways.

  A `[b]` vector becomes the `[1, b]` matrix whose one row it is either by a reshape (the row-major order of the entries
  is kept) or by a `broadcast_in_dim` that sends the vector's axis to axis 1. Both read, at `(0, c)`, the vector at `c`:
  they are the same array. (A bias handed to a kernel as `b.reshape(1, h)` against the `b[None, :]` a host sum
  broadcasts.) The module depends on the library only.
-/
import Idealize.ShloMosaic.Lib.Pipeline.Value
import Idealize.ShloMosaic.Lib.ValueLayout

namespace Idealize.ShloMosaic.ValueIdx

variable {α : Type}

/-- The reshape of a `[b]` vector to `[1, b]` is its `broadcast_in_dim` along axis 1. -/
theorem shapeCast_row_eq_broadcastInDim_row {b : ℕ} (x : (⟨1, ![b]⟩ : Shape).Idx → α)
    (h : (⟨1, ![b]⟩ : Shape).ShapeCasts ⟨2, ![1, b]⟩)
    (h' : (⟨1, ![b]⟩ : Shape).BroadcastsInDim ⟨2, ![1, b]⟩ (![1] : Fin 1 → Fin 2)) :
    shapeCast ⟨2, ![1, b]⟩ x h = broadcastInDim ⟨2, ![1, b]⟩ (![1] : Fin 1 → Fin 2) h' x := by
  funext i
  obtain ⟨u, c, rfl⟩ : ∃ (u : Fin 1) (c : Fin b), i = ix2 u c := ⟨i 0, i 1, eq_ix2 i⟩
  rw [shapeCast_a_1a_apply]
  refine (broadcastInDim_apply _ h' x (ix2 u c) (ix1 c) fun ax => ?_).symm
  match ax with
  | ⟨0, _⟩ =>
    show c.val = if b = 1 then 0 else c.val
    split
    · have := c.isLt; omega
    · rfl

end Idealize.ShloMosaic.ValueIdx
-- ==== Proof.KernelValue.lean ====
/-
  The two arrays the idealized kernel leaves are the network's two functions of its arguments.

  The contents of a core's buffers are followed through the program's segments (Proof/HostStretches.lean reads the host
  operations). The projection kernel finds `x` and `W` as launched and leaves `x · W`. The output kernel finds the
  aggregation of `x · W` along the two rows of the edge list, the two biases reshaped to one-row matrices (the same
  one-row matrices as the host's broadcasts) and `Wout`, and leaves the hidden layer and the output layer.
-/
import proofs.«156523_j68951404970424_1_alg».proof.Proof.Gen.KernelIdeal.Frame
import proofs.«156523_j68951404970424_1_alg».proof.Proof.HostStretches
import proofs.«156523_j68951404970424_1_alg».proof.Proof.ProjectionRegion
import proofs.«156523_j68951404970424_1_alg».proof.Proof.OutputRegion
import proofs.«156523_j68951404970424_1_alg».proof.Proof.Network
import proofs.«156523_j68951404970424_1_alg».proof.Proof.LibRowMatrix

set_option maxRecDepth 16384

noncomputable section

namespace Cert.Gcn

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- After the projection kernel its result array holds `x · W` of the arguments as launched. -/
theorem xw_after : (W2 m ρ c (Proc.devRef .tc main_v7) : S100000x3.Idx → EReal)
    = proj (m ((c.tc : Thread nD τ).loc main_arg0)) (m ((c.tc : Thread nD τ).loc main_arg2)) :=
  (W2_arr m ρ c 2).trans ((proj_final (V1 m ρ) c).trans (by rw [entry_x m ρ c, entry_w m ρ c]))

/-- The first array the program leaves is the hidden layer of its arguments as launched. -/
theorem kernel_first : ((dat1 (V5 m ρ) c).arrAt 4 cfg1.N : S100000x3.Idx → EReal)
    = hiddenOf (m ((c.tc : Thread nD τ).loc main_arg0)) (m ((c.tc : Thread nD τ).loc main_arg1))
        (m ((c.tc : Thread nD τ).loc main_arg2)) (m ((c.tc : Thread nD τ).loc main_arg3)) := by
  rw [hidden_final (V5 m ρ) c, agg_entry m ρ c, brow_entry m ρ c, source_after m ρ c, dest_after m ρ c, xw_after m ρ c,
    arg3_after m ρ c, shapeCast_row_eq_broadcastInDim_row _ _ Cert.ReferenceIdeal.Facts₀.bcast_S3_S1x3_1]
  rfl

/-- The second array the program leaves is the output layer of its arguments as launched. -/
theorem kernel_second : ((dat1 (V5 m ρ) c).arrAt 5 cfg1.N : S100000x4.Idx → EReal)
    = outputOf (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  rw [output_final (V5 m ρ) c, agg_entry m ρ c, brow_entry m ρ c, orow_entry m ρ c, wout_entry m ρ c,
    source_after m ρ c, dest_after m ρ c, xw_after m ρ c, arg3_after m ρ c, arg4_after m ρ c, arg5_after m ρ c,
    shapeCast_row_eq_broadcastInDim_row _ _ Cert.ReferenceIdeal.Facts₀.bcast_S3_S1x3_1,
    shapeCast_row_eq_broadcastInDim_row _ _ Cert.ReferenceIdeal.Facts₀.bcast_S4_S1x4_1]
  rfl

end Cert.Gcn

end
-- ==== Proof.ReferenceValue.lean ====
/-
  The reference's two results are the network's two functions of its arguments.

  The reference program is one straight line of host operations. Its first result is the hidden layer of the
  aggregation of the projected features, its second the output layer of the first; the source row, the destination row,
  the projection `x · W`, the aggregation, and the two biases written as one-row matrices are the sub-terms of the
  run's result terms, so the equations hold by unfolding the names.
-/
import proofs.«156523_j68951404970424_1_alg».proof.Proof.RefRun
import proofs.«156523_j68951404970424_1_alg».proof.Proof.Network

set_option maxRecDepth 8192

noncomputable section

namespace Cert.Gcn

open Idealize.ShloMosaic Idealize.ShloMosaic.TcCoe Idealize.SL.Sem
open Cert.ReferenceIdeal Cert.ReferenceIdeal.Facts₀ Cert.ReferenceIdeal.Facts

variable (m : (ℓ : Loc nD τ sig) → Buf (Elt Ideal) ℓ) (c : Dev nD)

/-- The run's first result term is the hidden layer of the launch contents of the arguments. -/
theorem ref_first : Cert.ReferenceIdeal.ValueP.res_main_v47 (F := Ideal) m c
    = hiddenOf (m ((c.tc : Thread nD τ).loc main_arg0)) (m ((c.tc : Thread nD τ).loc main_arg1))
        (m ((c.tc : Thread nD τ).loc main_arg2)) (m ((c.tc : Thread nD τ).loc main_arg3)) := by
  unfold Cert.ReferenceIdeal.ValueP.res_main_v47 hiddenOf hidden aggregate edgeWeight invSqrtDegree degree wrapIndex sourceRow destRow proj
  rfl

/-- The run's second result term is the output layer of the launch contents of the arguments. -/
theorem ref_second : Cert.ReferenceIdeal.ValueP.res_main_v51 (F := Ideal) m c
    = outputOf (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  unfold Cert.ReferenceIdeal.ValueP.res_main_v51 outputOf output hiddenOf hidden aggregate edgeWeight invSqrtDegree degree wrapIndex sourceRow destRow proj
  rfl

end Cert.Gcn

end
-- ==== Proof.lean ====
/-
  A two-layer graph convolution: the kernel and its reference compute the same two arrays.

  The network takes node features `x` (100000 × 128), an edge list `e` (2 × 3200000 node numbers), and two layers'
  weights and biases `W`, `b`, `Wout`, `bout`. With the self loops added and `d` the in-degree of a node,
      xw     = x · W,
      agg[i] = Σ over edges (j → i) of xw[j] · (1 / sqrt d[j]) · (1 / sqrt d[i]),
      h      = max (agg + b, 0),
      z      = h · Wout + bout,
  and the results are `h` and `z`. The reference computes all of it with host operations. The kernel computes `xw`
  and the pair `(h, z)` in two kernels over blocks of 5000 node rows, and the sparse middle with the same host
  operations as the reference.

  Over the exact extended reals the two programs end with equal results from equal arguments: a change of float
  format on the way into a product is the identity and a product into a zero accumulator is the plain sum, so each
  kernel's block is the block of the whole-array stage (Proof/DenseStages.lean); the blocks cover the rows
  (Proof/ProjectionRegion.lean, Proof/OutputRegion.lean); the sparse middle is one function of the two rows of the edge
  list and of `xw` on both sides (Proof/Aggregation.lean); and a bias reshaped to a one-row matrix is the bias broadcast
  to one (Proof/LibRowMatrix.lean). No law that needs finite values is used. The kernel's idealization rewrote nothing,
  so it preserves the kernel trivially; the three programs terminate without a fault and leave their arguments as they
  found them.
-/
import proofs.«156523_j68951404970424_1_alg».proof.Defs
import proofs.«156523_j68951404970424_1_alg».proof.Proof.Gen.Kernel
import proofs.«156523_j68951404970424_1_alg».proof.Proof.Gen.Kernel.Skeleton
import proofs.«156523_j68951404970424_1_alg».proof.Proof.Gen.Kernel.Launch
import proofs.«156523_j68951404970424_1_alg».proof.Proof.Gen.Kernel.Points
import proofs.«156523_j68951404970424_1_alg».proof.Proof.Gen.Kernel.Frame
import proofs.«156523_j68951404970424_1_alg».proof.Proof.Gen.KernelIdeal
import proofs.«156523_j68951404970424_1_alg».proof.Proof.Gen.KernelIdeal.Skeleton
import proofs.«156523_j68951404970424_1_alg».proof.Proof.Gen.KernelIdeal.Launch
import proofs.«156523_j68951404970424_1_alg».proof.Proof.Gen.KernelIdeal.Points
import proofs.«156523_j68951404970424_1_alg».proof.Proof.Gen.KernelIdeal.Frame
import proofs.«156523_j68951404970424_1_alg».proof.Proof.Gen.ReferenceIdeal
import proofs.«156523_j68951404970424_1_alg».proof.Proof.Gen.Pre_finite_inputs
import proofs.«156523_j68951404970424_1_alg».proof.Proof.RefRun
import proofs.«156523_j68951404970424_1_alg».proof.Proof.KernelRun
import proofs.«156523_j68951404970424_1_alg».proof.Proof.KernelValue
import proofs.«156523_j68951404970424_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_ideal : Cert.frame_KernelIdeal := fun m ρ _ => Cert.KernelIdeal.Gen.frame m ρ

/-- The idealized reference runs and leaves its arguments unchanged: its run, the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- From memories that agree on the six arguments both programs end with the hidden layer and the output layer of those
    arguments: the kernel's two arrays by its run and the two regions' whole-array forms, the reference's by its run's
    result terms. -/
theorem algebraic : Cert.algebraic_KernelIdeal_ReferenceIdeal := by
  intro m ρ m' ρ' _ hagree
  refine ⟨fun c => Cert.Gcn.hiddenOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.Gcn.outputOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.kernel_first m ρ c), (h c).2.1.trans (Cert.Gcn.kernel_second m ρ c), (h c).2.2⟩)
      (Cert.KernelIdeal.RunOut.run_results (F := Ideal) m ρ)
  · refine (θ_run Cert.ReferenceIdeal.defs _ _).mono
      (fun r h c => ⟨(h c).1.trans ?_, (h c).2.1.trans ?_, (h c).2.2⟩)
      (Cert.ReferenceIdeal.ValueP.run (F := Ideal) m' ρ')
    · rw [Cert.Gcn.ref_first m' c, (hagree c).1, (hagree c).2.1, (hagree c).2.2.1, (hagree c).2.2.2.1]
    · rw [Cert.Gcn.ref_second m' c, (hagree c).1, (hagree c).2.1, (hagree c).2.2.1, (hagree c).2.2.2.1,
        (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
